-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x512 : Shape := ⟨3, ![4, 8192, 512]⟩
abbrev S512x512 : Shape := ⟨2, ![512, 512]⟩
abbrev S512 : Shape := ⟨1, ![512]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg2 : FVec F S512 .f32) (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_cst_8 : FVec F S_ .f32 := constant S_ .f32 0x00000000#32
  let main_v24 : FVec F S512 .f32 := broadcastInDim S512 ![] bcast_S_S512 main_cst_8
  let main_v25 : IVec S512 1 := cmpf .une main_arg2 main_v24
  let main_c_9 : IVec S_ 1 := constantI S_ 1 1#1
  let main_v26 : IVec S_ 1 := (fun x v => Host.reduce IntOp.andi x v reducesTo_S512_S_d0 h_S_) main_v25 main_c_9
  let main_v27 : IVec S_ 1 := andi main_v23 main_v26
  main_v27

def fn {F : FTy → Type} [FloatOps F] (main_arg0 : FVec F S4x8192x512 .f32) (main_arg1 : FVec F S512x512 .f32) (main_arg2 : FVec F S512 .f32) (main_arg3 : FVec F S512x512 .f32) (main_arg4 : FVec F S512 .f32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg2 main_arg4 main_v13 main_v16
-- ==== Kernel.lean ====
abbrev S4x8192x512 : Shape := ⟨3, ![4, 8192, 512]⟩
abbrev S512x512 : Shape := ⟨2, ![512, 512]⟩
abbrev S512 : Shape := ⟨1, ![512]⟩
abbrev S32768x512 : Shape := ⟨2, ![32768, 512]⟩
abbrev S_ : Shape := ⟨0, ![]⟩
abbrev S1x512 : Shape := ⟨2, ![1, 512]⟩
abbrev S512x1 : Shape := ⟨2, ![512, 1]⟩
abbrev S2048x512 : Shape := ⟨2, ![2048, 512]⟩
abbrev S2048 : Shape := ⟨1, ![2048]⟩
abbrev S2048x1 : Shape := ⟨2, ![2048, 1]⟩

abbrev nBuf : Space → Nat
  | .hbm => 27
  | .vmem => 9
  | .smem => 0
  | _ => 0

abbrev bufTy : (tb : Table) → Fin (tcTables nBuf tb) → BufTy
  | .hbm, ⟨0, _⟩ => ⟨S4x8192x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S32768x512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S512x512, .f32⟩
  | .hbm, ⟨21, _⟩ => ⟨S512x512, .bf16⟩
  | .hbm, ⟨22, _⟩ => ⟨S512x512, .f32⟩
  | .hbm, ⟨23, _⟩ => ⟨S512x512, .bf16⟩
  | .hbm, ⟨24, _⟩ => ⟨S1x512, .f32⟩
  | .hbm, ⟨25, _⟩ => ⟨S32768x512, .f32⟩
  | .hbm, ⟨26, _⟩ => ⟨S4x8192x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S2048x512, .f32⟩
  | .local _ .vmem, ⟨8, _⟩ => ⟨S2048x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x8192x512_S32768x512 : S4x8192x512.ShapeCasts S32768x512
  bcast_S_S512 : S_.BroadcastsInDim S512 (![] : Fin 0 → Fin S512.rank)
  shapeCasts_S512_S1x512 : S512.ShapeCasts S1x512
  bcast_S1x512_S512x512_0_1 : S1x512.BroadcastsInDim S512x512 (![0, 1] : Fin 2 → Fin S512x512.rank)
  reducesTo_S512x512_S512_d1 : S512x512.ReducesTo [1] S512
  h_S_ : 0 < S_.numel
  bcast_S512_S512x1_0 : S512.BroadcastsInDim S512x1 (![0] : Fin 1 → Fin S512x1.rank)
  shapeCasts_S512x1_S1x512 : S512x1.ShapeCasts S1x512
  bcast_S_S1x512 : S_.BroadcastsInDim S1x512 (![] : Fin 0 → Fin S1x512.rank)
  transposes_S512x512_S512x512_1_0 : S512x512.Transposes [1, 0] S512x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  reduces_S2048x512_S2048 : S2048x512.Reduces [1] S2048
  shapeCasts_S2048_S2048x1 : S2048.ShapeCasts S2048x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S2048x1_S2048x512 : S2048x1.Broadcasts S2048x512
  shapeCasts_S32768x512_S4x8192x512 : S32768x512.ShapeCasts S4x8192x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S32768x512.size a
  hwx0_6 : ∀ i : grid0.Coords, EltTy.bits .f32 = 32 ∨ (Rect.block (s := S32768x512) S2048x512.size (cc0_transform_6 i) (hinb0_6 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S2048x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8192x512 : Shape := ⟨3, ![4, 8192, 512]⟩
abbrev S512x512 : Shape := ⟨2, ![512, 512]⟩
abbrev S512 : Shape := ⟨1, ![512]⟩
abbrev S32768x512 : Shape := ⟨2, ![32768, 512]⟩
abbrev S1x512 : Shape := ⟨2, ![1, 512]⟩
abbrev S_ : Shape := ⟨0, ![]⟩
abbrev S32768 : Shape := ⟨1, ![32768]⟩
abbrev S32768x1 : Shape := ⟨2, ![32768, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S32768x512, .f32⟩
  | .hbm, ⟨6, _⟩ => ⟨S1x512, .f32⟩
  | .hbm, ⟨7, _⟩ => ⟨S32768x512, .f32⟩
  | .hbm, ⟨8, _⟩ => ⟨S32768x512, .f32⟩
  | .hbm, ⟨9, _⟩ => ⟨S1x512, .f32⟩
  | .hbm, ⟨10, _⟩ => ⟨S512x512, .f32⟩
  | .hbm, ⟨11, _⟩ => ⟨S512x512, .f32⟩
  | .hbm, ⟨12, _⟩ => ⟨S32768x512, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S512x512, .f32⟩
  | .hbm, ⟨17, _⟩ => ⟨S_, .f32⟩
  | .hbm, ⟨18, _⟩ => ⟨S512, .f32⟩
  | .hbm, ⟨19, _⟩ => ⟨S1x512, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S512x512, .f32⟩
  | .hbm, ⟨24, _⟩ => ⟨S32768x512, .f32⟩
  | .hbm, ⟨25, _⟩ => ⟨S_, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S_, .f32⟩
  | .hbm, ⟨30, _⟩ => ⟨S32768x512, .f32⟩
  | .hbm, ⟨31, _⟩ => ⟨S32768x512, .f32⟩
  | .hbm, ⟨32, _⟩ => ⟨S_, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S512x512, .f32⟩
  | .hbm, ⟨37, _⟩ => ⟨S32768x512, .f32⟩
  | .hbm, ⟨38, _⟩ => ⟨S1x512, .f32⟩
  | .hbm, ⟨39, _⟩ => ⟨S32768x512, .f32⟩
  | .hbm, ⟨40, _⟩ => ⟨S32768x512, .f32⟩
  | .hbm, ⟨41, _⟩ => ⟨S4x8192x512, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  shapeCasts_S4x8192x512_S32768x512 : S4x8192x512.ShapeCasts S32768x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S1x512_S512x512_0_1 : S1x512.BroadcastsInDim S512x512 (![0, 1] : Fin 2 → Fin S512x512.rank)
  reducesTo_S32768x512_S32768_d1 : S32768x512.ReducesTo [1] S32768
  h_S_ : 0 < S_.numel
  bcast_S32768_S32768x1_0 : S32768.BroadcastsInDim S32768x1 (![0] : Fin 1 → Fin S32768x1.rank)
  reducesTo_S512x512_S512_d1 : S512x512.ReducesTo [1] S512
  bcast_S32768x1_S32768x512_0_1 : S32768x1.BroadcastsInDim S32768x512 (![0, 1] : Fin 2 → Fin S32768x512.rank)
  transposes_S512x512_S512x512_1_0 : S512x512.Transposes [1, 0] S512x512
  bcast_S_S32768x512 : S_.BroadcastsInDim S32768x512 (![] : Fin 0 → Fin S32768x512.rank)
  shapeCasts_S32768x512_S4x8192x512 : S32768x512.ShapeCasts S4x8192x512
  dot_S32768x512_S512x512_S32768x512_1_0_0_1_n_n_wf : DotDims.WF S32768x512 S512x512 S32768x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.Consts.lean ====
/-
  The float constants the two programs spell, as the extended reals their bit patterns denote:
  0, 1, 2, -1/2 and +∞.  Stated once here, so that no other module opens the decoding of a pattern.
-/
import Idealize.ShloMosaic.PureOps.Ideal

noncomputable section

namespace Cert.RbfConsts

open Idealize.ShloMosaic

/-- `+0.0` denotes `0`. -/
theorem ofBits_zero : Ideal.ofBits .f32 0x00000000#32 = ((0 : ℝ) : EReal) := by
  simp [Ideal.ofBits, Ideal.ieee]

/-- `1.0` denotes the real `1`. -/
theorem ofBits_one : Ideal.ofBits .f32 0x3F800000#32 = ((1 : ℝ) : EReal) := by
  simp [Ideal.ofBits, Ideal.ieee, -EReal.coe_mul]; norm_num

/-- `2.0` denotes the real `2`. -/
theorem ofBits_two : Ideal.ofBits .f32 0x40000000#32 = ((2 : ℝ) : EReal) := by
  simp [Ideal.ofBits, Ideal.ieee, -EReal.coe_mul]; norm_num

/-- `-0.5` denotes the real `-1/2`. -/
theorem ofBits_neg_half : Ideal.ofBits .f32 0xBF000000#32 = ((-(1 / 2) : ℝ) : EReal) := by
  simp [Ideal.ofBits, Ideal.ieee, -EReal.coe_mul, -EReal.coe_neg]; norm_num

/-- The pattern of `+inf` denotes `⊤`. -/
theorem ofBits_inf : Ideal.ofBits .f32 0x7F800000#32 = (⊤ : EReal) := by
  simp [Ideal.ofBits, Ideal.ieee]

end Cert.RbfConsts

end
-- ==== Proof.RbfLaw.lean ====
/-
  The mathematics of the certificate, with no program in sight.

  For a row `x`, a centre `c` and a length scale `l` (vectors over a finite index set) the RBF exponent is
  `-½ · ‖x/l - c/l‖²`, clamped at zero from above.  One side expands the square and clamps the squared
  distance from below before scaling,

      -½ · max (Σ (x/l)² + Σ (c/l)² - 2 · Σ (x/l)(c/l)) 0 ,

  the other scales first, with the reciprocal `1/l` as a factor, and clamps the exponent from above,

      min (Σ (x·(1/l))(c·(1/l)) + (-½) · Σ (x·(1/l))² + (-½) · Σ (c·(1/l))²) 0 .

  On real numbers with `l ≠ 0` the two agree: `x · (1/l) = x / l`, the sums are sums of reals, multiplication
  by `-½` turns `max · 0` into `min · 0`, and the bracket is `-½` times the expanded square.  On the extended
  reals this needs every entry finite and every `l k` nonzero (a quotient by zero is an infinity there, and
  `⊤ - ⊤` is not `0`), which is what the hypotheses say.

  The result of the whole computation applies the exponential to each exponent and contracts with the
  output weights; that outer part is the same on both sides.
-/
import Idealize.ShloMosaic.PureOps.Ideal
import proofs.«161106_j61186104098901_2_alg».proof.Proof.Consts

noncomputable section

namespace Cert.RbfLaw

open Idealize.ShloMosaic

/-! ## Coercion of real sums, maxima and minima -/

/-- The coercion of a finite sum of reals is the sum of the coercions. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  Monotone.map_max EReal.coe_strictMono.monotone

theorem coe_min (a b : ℝ) : ((min a b : ℝ) : EReal) = min (a : EReal) (b : EReal) :=
  Monotone.map_min EReal.coe_strictMono.monotone

/-! ## The two scalings by the length scale -/

/-- A real times the reciprocal `1 / l` of a nonzero real is the real quotient. -/
theorem mul_recip (x l : ℝ) (hl : l ≠ 0) :
    (x : EReal) * Ideal.div ((1 : ℝ) : EReal) (l : EReal) = ((x / l : ℝ) : EReal) := by
  rw [Ideal.div_coe hl, ← EReal.coe_mul, ← EReal.coe_mul]
  congr 1
  field_simp

/-- A real divided by a nonzero real is the real quotient. -/
theorem quot (x l : ℝ) (hl : l ≠ 0) : Ideal.div (x : EReal) (l : EReal) = ((x / l : ℝ) : EReal) := by
  rw [Ideal.div_coe hl, ← EReal.coe_mul]
  congr 1
  field_simp

/-! ## The law on the reals -/

/-- Clamping the scaled expanded square from above is scaling the square clamped from below. -/
theorem exponent_real (A B c : ℝ) :
    min (c + -(1 / 2) * A + -(1 / 2) * (0 + B)) 0 = -(1 / 2) * max ((0 + A) + (0 + B) - 2 * c) 0 := by
  rcases le_total ((0 + A) + (0 + B) - 2 * c) 0 with h | h
  · rw [max_eq_right h, min_eq_right (by linarith)]; ring
  · rw [max_eq_left h, min_eq_left (by linarith)]; ring

/-! ## The two exponents, as the two programs compute them -/

variable {κ : Type} [Fintype κ]

/-- The constants, as their bit patterns. -/
abbrev zero : EReal := Ideal.ofBits .f32 0x00000000#32
abbrev one : EReal := Ideal.ofBits .f32 0x3F800000#32
abbrev two : EReal := Ideal.ofBits .f32 0x40000000#32
abbrev negHalf : EReal := Ideal.ofBits .f32 0xBF000000#32

/-- The reciprocal length scale `1 / l k`. -/
def recip (l : κ → EReal) (k : κ) : EReal := Ideal.div one (l k)

/-- Scale by the reciprocal first, clamp the exponent from above. -/
def expScaled (x c l : κ → EReal) : EReal :=
  min (((∑ k, (x k * recip l k) * (c k * recip l k)) + negHalf * (∑ k, (x k * recip l k) * (x k * recip l k)))
      + negHalf * (zero + ∑ k, (c k * recip l k) * (c k * recip l k))) zero

/-- Divide by the length scale, clamp the squared distance from below, then scale. -/
def expClamped (x c l : κ → EReal) : EReal :=
  negHalf * max (((zero + ∑ k, Ideal.div (x k) (l k) * Ideal.div (x k) (l k))
        + (zero + ∑ k, Ideal.div (c k) (l k) * Ideal.div (c k) (l k)))
      - two * (∑ k, Ideal.div (x k) (l k) * Ideal.div (c k) (l k))) zero

/-- The two exponents agree on finite entries and nonzero finite length scales. -/
theorem expScaled_eq_expClamped (x c l : κ → EReal)
    (hx : ∀ k, ∃ r : ℝ, x k = r) (hc : ∀ k, ∃ r : ℝ, c k = r) (hl : ∀ k, ∃ r : ℝ, l k = r ∧ r ≠ 0) :
    expScaled x c l = expClamped x c l := by
  choose x' hx' using hx
  choose c' hc' using hc
  choose l' hl' using hl
  have hxs : ∀ k, x k * recip l k = ((x' k / l' k : ℝ) : EReal) := fun k => by
    unfold recip one; rw [hx' k, (hl' k).1, Cert.RbfConsts.ofBits_one, mul_recip _ _ (hl' k).2]
  have hcs : ∀ k, c k * recip l k = ((c' k / l' k : ℝ) : EReal) := fun k => by
    unfold recip one; rw [hc' k, (hl' k).1, Cert.RbfConsts.ofBits_one, mul_recip _ _ (hl' k).2]
  have hxq : ∀ k, Ideal.div (x k) (l k) = ((x' k / l' k : ℝ) : EReal) := fun k => by
    rw [hx' k, (hl' k).1, quot _ _ (hl' k).2]
  have hcq : ∀ k, Ideal.div (c k) (l k) = ((c' k / l' k : ℝ) : EReal) := fun k => by
    rw [hc' k, (hl' k).1, quot _ _ (hl' k).2]
  unfold expScaled expClamped zero two negHalf
  simp only [hxs, hcs, hxq, hcq, Cert.RbfConsts.ofBits_zero, Cert.RbfConsts.ofBits_two, Cert.RbfConsts.ofBits_neg_half,
    ← EReal.coe_mul, ← coe_sum, ← EReal.coe_add, ← EReal.coe_sub, ← coe_max, ← coe_min]
  exact congrArg _ (exponent_real _ _ _)

/-! ## The whole result -/

variable {ρ ν δ : Type} [Fintype ν]

/-- The result at row `r` and output channel `j`: the exponential of the exponent against every centre, contracted
    with the output weights, plus the bias. -/
def rbfOut (E : (κ → EReal) → (κ → EReal) → (κ → EReal) → EReal) (X : ρ → κ → EReal) (C : ν → κ → EReal)
    (l : κ → EReal) (W : δ → ν → EReal) (b : δ → EReal) (r : ρ) (j : δ) : EReal :=
  (∑ n, Ideal.exp (E (X r) (C n) l) * W j n) + b j

/-- With either exponent the result is the same, on finite inputs and nonzero finite length scales. -/
theorem rbfOut_scaled_eq_clamped (X : ρ → κ → EReal) (C : ν → κ → EReal) (l : κ → EReal) (W : δ → ν → EReal) (b : δ → EReal)
    (hX : ∀ r k, ∃ a : ℝ, X r k = a) (hC : ∀ n k, ∃ a : ℝ, C n k = a) (hl : ∀ k, ∃ a : ℝ, l k = a ∧ a ≠ 0) (r : ρ) (j : δ) :
    rbfOut expScaled X C l W b r j = rbfOut expClamped X C l W b r j := by
  unfold rbfOut
  simp only [expScaled_eq_expClamped _ _ _ (hX r) (hC _) hl]

end Cert.RbfLaw

end
-- ==== Proof.RefValue.lean ====
/-
  The reference, read at an index.

  The reference scales rows and centres by dividing by the length scale, forms the squared distance of row `p`
  to centre `n` from the two sums of squares and the cross term, clamps it at zero from below, multiplies by
  `-½`, exponentiates, and contracts the features with the output weights, adding the bias.  Read at the index
  `(p, q)` of the flattened `[32768, 512]` result this is `RbfLaw.rbfOut` with the clamped exponent
  (`RbfLaw.expClamped`), over the flattened input rows.
-/
import proofs.«161106_j61186104098901_2_alg».proof.Proof.Gen.ReferenceIdeal.Read
import proofs.«161106_j61186104098901_2_alg».proof.Proof.RbfLaw

noncomputable section

namespace Cert.RbfRef

open Cert.ReferenceIdeal Cert.ReferenceIdeal.Read Idealize.ShloMosaic Idealize.ShloMosaic.ValueIdx

variable (x0 : (⟨S4x8192x512, .f32⟩ : BufTy).Contents (Elt Ideal)) (x1 : (⟨S512x512, .f32⟩ : BufTy).Contents (Elt Ideal))
  (x2 : (⟨S512, .f32⟩ : BufTy).Contents (Elt Ideal)) (x3 : (⟨S512x512, .f32⟩ : BufTy).Contents (Elt Ideal))
  (x4 : (⟨S512, .f32⟩ : BufTy).Contents (Elt Ideal))

/-- Row `p` of the flattened input, entry `k`, divided by the length scale's entry `k`. -/
theorem scaled_row (p : Fin 32768) (k : Fin 512) :
    val_main_v3 (F := Ideal) x0 x2 (ix2 p k) = Ideal.div (val_main_v0 (F := Ideal) x0 (ix2 p k)) (x2 (ix1 k)) := by
  rw [val_main_v3_apply, val_main_v2_apply, val_main_v1_apply, Ideal.hostDivf_def]
  have e : idx_main_v1 (idx_main_v2 (ix2 p k)) = ix1 k := funext fun a => Fin.ext (by match a with | ⟨0, _⟩ => rfl)
  rw [e]

/-- Centre `n`, entry `k`, divided by the length scale's entry `k`. -/
theorem scaled_centre (n k : Fin 512) :
    val_main_v6 (F := Ideal) x1 x2 (ix2 n k) = Ideal.div (x1 (ix2 n k)) (x2 (ix1 k)) := by
  rw [val_main_v6_apply, val_main_v5_apply, val_main_v4_apply, Ideal.hostDivf_def]
  have e : idx_main_v4 (idx_main_v5 (ix2 n k)) = ix1 k := funext fun a => Fin.ext (by match a with | ⟨0, _⟩ => rfl)
  rw [e]

/-- The sum of squares of scaled row `p`, as broadcast along the centres. -/
theorem row_squares (p : Fin 32768) (n : Fin 512) :
    val_main_v13 (F := Ideal) x0 x2 (ix2 p n)
      = RbfLaw.zero + ∑ k : Fin 512, Ideal.div (val_main_v0 (F := Ideal) x0 (ix2 p k)) (x2 (ix1 k)) * Ideal.div (val_main_v0 (F := Ideal) x0 (ix2 p k)) (x2 (ix1 k)) := by
  rw [val_main_v13_apply, val_main_v9_apply, val_main_v8_apply, val_main_cst_apply, Ideal.ofBits_def]
  refine congrArg (_ + ·) (Finset.sum_congr rfl fun k _ => ?_)
  have e : idx_main_v8 (idx_main_v9 (idx_main_v13 (ix2 p n))) k = ix2 p k :=
    funext fun a => Fin.ext (by match a with | ⟨0, _⟩ => rfl | ⟨1, _⟩ => rfl)
  rw [e, val_main_v7_apply, Ideal.mulf_def, scaled_row]

/-- The sum of squares of scaled centre `n`, as broadcast along the rows. -/
theorem centre_squares (p : Fin 32768) (n : Fin 512) :
    val_main_v14 (F := Ideal) x1 x2 (ix2 p n)
      = RbfLaw.zero + ∑ k : Fin 512, Ideal.div (x1 (ix2 n k)) (x2 (ix1 k)) * Ideal.div (x1 (ix2 n k)) (x2 (ix1 k)) := by
  rw [val_main_v14_apply, val_main_v12_apply, val_main_v11_apply, val_main_cst_0_apply, Ideal.ofBits_def]
  refine congrArg (_ + ·) (Finset.sum_congr rfl fun k _ => ?_)
  have e : idx_main_v11 (idx_main_v12 (idx_main_v14 (ix2 p n))) k = ix2 n k :=
    funext fun a => Fin.ext (by match a with | ⟨0, _⟩ => rfl | ⟨1, _⟩ => rfl)
  rw [e, val_main_v10_apply, Ideal.mulf_def, scaled_centre]

/-- The cross term of scaled row `p` and scaled centre `n`. -/
theorem cross (p : Fin 32768) (n : Fin 512) :
    val_main_v17 (F := Ideal) x0 x1 x2 (ix2 p n)
      = ∑ k : Fin 512, Ideal.div (val_main_v0 (F := Ideal) x0 (ix2 p k)) (x2 (ix1 k)) * Ideal.div (x1 (ix2 n k)) (x2 (ix1 k)) := by
  rw [val_main_v17_apply]
  refine Finset.sum_congr rfl fun k _ => ?_
  have el : lidx_main_v17 (ix2 p n) k = ix2 p k :=
    funext fun a => Fin.ext (by match a with | ⟨0, _⟩ => rfl | ⟨1, _⟩ => rfl)
  have er : idx_main_v16 (ridx_main_v17 (ix2 p n) k) = ix2 n k :=
    funext fun a => Fin.ext (by match a with | ⟨0, _⟩ => rfl | ⟨1, _⟩ => rfl)
  rw [el, val_main_v16_apply, er, scaled_row, scaled_centre]

/-- The exponent of row `p` against centre `n` is the clamped form. -/
theorem exponent (p : Fin 32768) (n : Fin 512) :
    val_main_v24 (F := Ideal) x0 x1 x2 (ix2 p n)
      = RbfLaw.expClamped (fun k => val_main_v0 (F := Ideal) x0 (ix2 p k)) (fun k => x1 (ix2 n k)) (fun k => x2 (ix1 k)) := by
  rw [val_main_v24_apply, val_main_v23_apply, val_main_cst_3_apply, val_main_v22_apply, val_main_v21_apply, val_main_cst_2_apply,
    val_main_v20_apply, val_main_v19_apply, val_main_v18_apply, val_main_cst_1_apply, val_main_v15_apply,
    row_squares, centre_squares, cross]
  rfl

/-- The reference's flattened result at `(p, q)`. -/
theorem result_apply (p : Fin 32768) (q : Fin 512) :
    val_main_v30 (F := Ideal) x0 x1 x2 x3 x4 (ix2 p q)
      = RbfLaw.rbfOut RbfLaw.expClamped (fun r k => val_main_v0 (F := Ideal) x0 (ix2 r k)) (fun n k => x1 (ix2 n k)) (fun k => x2 (ix1 k))
          (fun j n => x3 (ix2 j n)) (fun j => x4 (ix1 j)) p q := by
  rw [val_main_v30_apply, val_main_v29_apply, val_main_v28_apply, val_main_v27_apply, Ideal.addf_def]
  have eb : idx_main_v28 (idx_main_v29 (ix2 p q)) = ix1 q := funext fun a => Fin.ext (by match a with | ⟨0, _⟩ => rfl)
  rw [eb]
  unfold RbfLaw.rbfOut
  refine congrArg (fun t : EReal => t + x4 (ix1 q)) (Finset.sum_congr rfl fun n _ => ?_)
  have el : lidx_main_v27 (ix2 p q) n = ix2 p n :=
    funext fun a => Fin.ext (by match a with | ⟨0, _⟩ => rfl | ⟨1, _⟩ => rfl)
  have er : idx_main_v26 (ridx_main_v27 (ix2 p q) n) = ix2 q n :=
    funext fun a => Fin.ext (by match a with | ⟨0, _⟩ => rfl | ⟨1, _⟩ => rfl)
  rw [el, val_main_v26_apply, er, val_main_v25_apply, Ideal.hostUnary_exp_def, exponent]

end Cert.RbfRef

end
-- ==== Proof.KernelHost.lean ====
/-
  What the host computes before the kernel is launched, and each of those arrays read at an index.

  From the length scale `l`, the centres `C`, the output weights `W` and the bias `b` the host prepares: the
  reciprocal length scale as a row; the centres scaled by it, transposed; the row of `-½` times each scaled
  centre's sum of squares; the output weights transposed; the bias as a row.  The input is flattened to
  `[32768, 512]` rows.  Read at an index these are, with `s k = 1 / l k`:

      recipRow (0, k) = s k              centresT (k, n) = C (n, k) · s k
      halfNegSq (0, n) = -½ · (0 + Σ_k (C (n, k) · s k)²)
      weightsT (n, j) = W (j, n)         biasRow (0, j) = b j .
-/
import proofs.«161106_j61186104098901_2_alg».proof.Proof.Gen.KernelIdeal.Frame
import proofs.«161106_j61186104098901_2_alg».proof.Proof.RbfLaw
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.RbfHost

open Cert.KernelIdeal Cert.KernelIdeal.Gen Idealize.ShloMosaic Idealize.ShloMosaic.TcCoe Idealize.SL.Sem
open Idealize.ShloMosaic.ValueIdx Idealize.ShloMosaic.StableHlo

/-! ## The arrays, as terms of the arguments -/

/-- The input flattened to rows. -/
def rows (x : FVec Ideal S4x8192x512 .f32) : FVec Ideal S32768x512 .f32 :=
  shapeCast S32768x512 x Gen.shapeCasts_S4x8192x512_S32768x512

/-- The reciprocal length scale, as a row. -/
def recipRow (l : FVec Ideal S512 .f32) : FVec Ideal S1x512 .f32 :=
  shapeCast S1x512 (Host.divf (F := Ideal) (broadcastInDim S512 ![] Gen.bcast_S_S512 (constant (F := Ideal) S_ .f32 0x3F800000#32)) l)
    Gen.shapeCasts_S512_S1x512

/-- The centres scaled by the reciprocal length scale. -/
def scaledCentres (C : FVec Ideal S512x512 .f32) (l : FVec Ideal S512 .f32) : FVec Ideal S512x512 .f32 :=
  mulf C (broadcastInDim S512x512 ![0, 1] Gen.bcast_S1x512_S512x512_0_1 (recipRow l))

/-- The scaled centres, transposed. -/
def centresT (C : FVec Ideal S512x512 .f32) (l : FVec Ideal S512 .f32) : FVec Ideal S512x512 .bf16 :=
  truncf .bf16 (transpose S512x512 [1, 0] (scaledCentres C l) Gen.transposes_S512x512_S512x512_1_0) Gen.bitsLt_bf16_f32

/-- The row of `-½` times each scaled centre's sum of squares. -/
def halfNegSq (C : FVec Ideal S512x512 .f32) (l : FVec Ideal S512 .f32) : FVec Ideal S1x512 .f32 :=
  mulf (broadcastInDim S1x512 ![] Gen.bcast_S_S1x512 (constant (F := Ideal) S_ .f32 0xBF000000#32))
    (shapeCast S1x512 (broadcastInDim S512x1 ![0] Gen.bcast_S512_S512x1_0
      (Host.reduceAdd (F := Ideal) (mulf (scaledCentres C l) (scaledCentres C l)) (constant (F := Ideal) S_ .f32 0x00000000#32)
        Gen.reducesTo_S512x512_S512_d1 Gen.h_S_)) Gen.shapeCasts_S512x1_S1x512)

/-- The output weights, transposed. -/
def weightsT (W : FVec Ideal S512x512 .f32) : FVec Ideal S512x512 .bf16 :=
  truncf .bf16 (transpose S512x512 [1, 0] W Gen.transposes_S512x512_S512x512_1_0) Gen.bitsLt_bf16_f32

/-- The bias, as a row. -/
def biasRow (b : FVec Ideal S512 .f32) : FVec Ideal S1x512 .f32 := shapeCast S1x512 b Gen.shapeCasts_S512_S1x512

/-! ## The region finds exactly these -/

variable (m : (ℓ : Loc nD τ sig) → Buf (Elt Ideal) ℓ)

theorem V_rows (c : Dev nD) : V m c main_v0 = rows (m ((c : Thread nD τ).loc main_arg0)) := by
  show StableHlo.after hostOps0 (fun b => m (c, b)) (Proc.devRef .tc main_v0) = _
  after_results
  rfl

theorem V_recipRow (c : Dev nD) : V m c main_v3 = recipRow (m ((c : Thread nD τ).loc main_arg2)) := by
  show StableHlo.after hostOps0 (fun b => m (c, b)) (Proc.devRef .tc main_v3) = _
  after_results
  rfl

theorem V_centresT (c : Dev nD) :
    V m c main_v13 = centresT (m ((c : Thread nD τ).loc main_arg1)) (m ((c : Thread nD τ).loc main_arg2)) := by
  show StableHlo.after hostOps0 (fun b => m (c, b)) (Proc.devRef .tc main_v13) = _
  after_results
  rfl

theorem V_halfNegSq (c : Dev nD) :
    V m c main_v11 = halfNegSq (m ((c : Thread nD τ).loc main_arg1)) (m ((c : Thread nD τ).loc main_arg2)) := by
  show StableHlo.after hostOps0 (fun b => m (c, b)) (Proc.devRef .tc main_v11) = _
  after_results
  rfl

theorem V_weightsT (c : Dev nD) : V m c main_v15 = weightsT (m ((c : Thread nD τ).loc main_arg3)) := by
  show StableHlo.after hostOps0 (fun b => m (c, b)) (Proc.devRef .tc main_v15) = _
  after_results
  rfl

theorem V_biasRow (c : Dev nD) : V m c main_v16 = biasRow (m ((c : Thread nD τ).loc main_arg4)) := by
  show StableHlo.after hostOps0 (fun b => m (c, b)) (Proc.devRef .tc main_v16) = _
  after_results
  rfl

/-! ## Each read at an index -/

/-- The reciprocal row at `k` is `1 / l k`. -/
theorem recipRow_at (l : FVec Ideal S512 .f32) (u : Fin 1) (k : Fin 512) :
    recipRow l (ix2 u k) = RbfLaw.recip (fun k => l (ix1 k)) k := by
  unfold recipRow RbfLaw.recip
  rw [shapeCast_a_1a_apply]
  show FloatOps.hostDivf (broadcastInDim S512 ![] Gen.bcast_S_S512 (constant (F := Ideal) S_ .f32 0x3F800000#32) (ix1 k)) (l (ix1 k)) = _
  rw [broadcastInDim_apply _ Gen.bcast_S_S512 (constant (F := Ideal) S_ .f32 0x3F800000#32) (ix1 k) ix0 (fun a => a.elim0)]
  rfl

/-- A scaled centre's entry. -/
theorem scaledCentres_at (C : FVec Ideal S512x512 .f32) (l : FVec Ideal S512 .f32) (n k : Fin 512) :
    scaledCentres C l (ix2 n k) = C (ix2 n k) * RbfLaw.recip (fun k => l (ix1 k)) k := by
  unfold scaledCentres
  rw [mulf_apply, broadcastInDim_apply _ Gen.bcast_S1x512_S512x512_0_1 (recipRow l) (ix2 n k) (ix2 (0 : Fin 1) k) (fun a => match a with
    | ⟨0, _⟩ => by show 0 = if (1 : Nat) = 1 then 0 else n.val; rw [if_pos rfl]
    | ⟨1, _⟩ => by show k.val = if (512 : Nat) = 1 then 0 else k.val; rw [if_neg (by decide)]), recipRow_at]

/-- The transposed scaled centres at `(k, n)`. -/
theorem centresT_at (C : FVec Ideal S512x512 .f32) (l : FVec Ideal S512 .f32) (k n : Fin 512) :
    centresT C l (ix2 k n) = C (ix2 n k) * RbfLaw.recip (fun k => l (ix1 k)) k := by
  unfold centresT
  rw [truncf_apply, transpose_ix2_apply, scaledCentres_at]

/-- The host's sum over axis 1 of a `[512, 512]` array, at row `n`: the initial value plus the sum of the row. -/
theorem host_rowsum_at (y : FVec Ideal S512x512 .f32) (init : FVec Ideal S_ .f32) (n : Fin 512) :
    Host.reduceAdd (F := Ideal) y init Gen.reducesTo_S512x512_S512_d1 Gen.h_S_ (ix1 n)
      = init (Shape.Idx.first Gen.h_S_) + ∑ k : Fin 512, y (ix2 n k) := by
  simp only [Host.reduceAdd, Ideal.hostReduceAdd_def]
  rw [Ideal.hostReduceAdd_single Gen.reducesTo_S512x512_S512_d1 (by decide)]
  refine congrArg (_ + ·) (Finset.sum_congr rfl fun k _ => ?_)
  exact congrArg y (funext fun a => Fin.ext (by match a with | ⟨0, _⟩ => rfl | ⟨1, _⟩ => rfl))

/-- The halved negated sum of squares of scaled centre `n`. -/
theorem halfNegSq_at (C : FVec Ideal S512x512 .f32) (l : FVec Ideal S512 .f32) (u : Fin 1) (n : Fin 512) :
    halfNegSq C l (ix2 u n)
      = RbfLaw.negHalf * (RbfLaw.zero + ∑ k : Fin 512, (C (ix2 n k) * RbfLaw.recip (fun k => l (ix1 k)) k) * (C (ix2 n k) * RbfLaw.recip (fun k => l (ix1 k)) k)) := by
  unfold halfNegSq
  rw [mulf_apply, broadcastInDim_apply _ Gen.bcast_S_S1x512 (constant (F := Ideal) S_ .f32 0xBF000000#32) (ix2 u n) ix0 (fun a => a.elim0)]
  refine congrArg (fun t : EReal => RbfLaw.negHalf * t) ?_
  rw [shapeCast_apply _ Gen.shapeCasts_S512x1_S1x512 (ix2 u n) (ix2 n (0 : Fin 1)) (by
      rw [Shape.rowMajor_val_two, Shape.rowMajor_val_two]
      show n.val * 1 + 0 = u.val * 512 + n.val
      have := u.isLt; omega),
    broadcastInDim_apply _ Gen.bcast_S512_S512x1_0 _ (ix2 n (0 : Fin 1)) (ix1 n) (fun a => match a with
      | ⟨0, _⟩ => by show n.val = if (512 : Nat) = 1 then 0 else n.val; rw [if_neg (by decide)]),
    host_rowsum_at]
  refine congrArg (fun t : EReal => RbfLaw.zero + t) (Finset.sum_congr rfl fun k _ => ?_)
  rw [mulf_apply, scaledCentres_at]

/-- The transposed output weights at `(n, j)`. -/
theorem weightsT_at (W : FVec Ideal S512x512 .f32) (n j : Fin 512) : weightsT W (ix2 n j) = W (ix2 j n) := by
  unfold weightsT
  rw [truncf_apply, transpose_ix2_apply]

/-- The bias row at `j`. -/
theorem biasRow_at (b : FVec Ideal S512 .f32) (u : Fin 1) (j : Fin 512) : biasRow b (ix2 u j) = b (ix1 j) := by
  unfold biasRow
  rw [shapeCast_a_1a_apply]

end Cert.RbfHost

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.KernelBody.lean ====
/-
  The kernel body, read at an index.

  One grid point holds a block of 2048 rows `x`.  With the reciprocal length scale `s` (one row), the scaled,
  transposed centres `ct` (`ct (k, n)` = entry `k` of scaled centre `n`), the row `h` of the centres' halved
  negated sums of squares, the transposed output weights `wt` and the bias row `b`, the body stores, at row `r`
  and output channel `j`,

      Σ_n exp (min (Σ_k (x r k · s k) · ct k n  +  (-½) · Σ_k (x r k · s k)²  +  h n) 0) · wt n j  +  b j .

  The two matrix products accumulate into zero, so each is the plain sum over the contracted axis; the row sum of
  squares is a lane reduction over axis 1, kept as a column and broadcast back along the centres; the roundings to
  the narrower float format are the identity on extended reals.
-/
import proofs.«161106_j61186104098901_2_alg».proof.Proof.Gen.KernelIdeal.Skeleton
import proofs.«161106_j61186104098901_2_alg».proof.Proof.RbfLaw
import proofs.«161106_j61186104098901_2_alg».proof.Proof.LibColBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.RbfBody

open Cert.KernelIdeal Cert.KernelIdeal.Gen Idealize.ShloMosaic Idealize.ShloMosaic.ValueIdx

/-! ## The non-pointwise operations of the body, each read at an index -/

/-- Row coordinate of the left operand of the body's matrix products: the output's row. -/
theorem lhs_row (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl

/-- Column coordinate of the right operand: the output's column. -/
theorem rhs_col (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- A matrix product of the body into the zero accumulator, at `(r, j)`: the sum over the contracted axis. -/
theorem matmul_at (lhs : FVec Ideal S2048x512 .bf16) (rhs : FVec Ideal S512x512 .bf16) (r : Fin 2048) (j : Fin 512) :
    matmul dot_S2048x512_S512x512_S2048x512_1_0_0_1_n_n none lhs rhs (constant (F := Ideal) S2048x512 .f32 0x00000000#32) (ix2 r j)
      = ∑ k : Fin 512, lhs (ix2 r k) * rhs (ix2 k j) := by
  simp only [matmul]
  rw [Ideal.matmul_constant_zero_apply,
    ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 r j)
      ((ValueIdx.contrEquiv1 dot_S2048x512_S512x512_S2048x512_1_0_0_1_n_n 512 rfl rfl).symm k) = ix2 r k :=
    funext fun a => Fin.ext (by
      match a with
      | ⟨0, _⟩ => exact lhs_row _ _
      | ⟨1, _⟩ => exact (dot_S2048x512_S512x512_S2048x512_1_0_0_1_n_n.lhsIdx_val_of_single rfl _ _).trans hk)
  have er : dot_S2048x512_S512x512_S2048x512_1_0_0_1_n_n.rhsIdx (ix2 r j)
      ((ValueIdx.contrEquiv1 dot_S2048x512_S512x512_S2048x512_1_0_0_1_n_n 512 rfl rfl).symm k) = ix2 k j :=
    funext fun a => Fin.ext (by
      match a with
      | ⟨0, _⟩ => exact (dot_S2048x512_S512x512_S2048x512_1_0_0_1_n_n.rhsIdx_val_of_single rfl _ _).trans hk
      | ⟨1, _⟩ => exact rhs_col _ _)
  rw [el, er]

/-- The lane sum of a block over axis 1, at row `r`. -/
theorem rowsum_at (v : FVec Ideal S2048x512 .f32) (hr : S2048x512.Reduces [1] S2048) (hφ : FTy.f32 = FTy.f32 ∨ FTy.f32 = FTy.bf16)
    (hacc : (0x00000000#32 : BitVec 32) = 0x00000000#32) (r : Fin 2048) :
    multiReduction .add [1] S2048 v 0x00000000#32 hr hφ hacc (ix1 r) = ∑ k : Fin 512, v (ix2 r k) := by
  refine (Ideal.multiReduction_add_single v 0x00000000#32 hr hφ hacc (ix1 r)).trans ?_
  show ∑ k : Fin 512, v (hr.lift (ix1 r) k) = _
  exact Finset.sum_congr rfl fun k _ => congrArg v (funext fun a => Fin.ext (by match a with | ⟨0, _⟩ => rfl | ⟨1, _⟩ => rfl))

/-- A vector of 2048 entries kept as a column: the column's entry `r`. -/
theorem column_at (v : FVec Ideal S2048 .f32) (r : Fin 2048) (u : Fin 1) :
    shapeCast S2048x1 v Gen.shapeCasts_S2048_S2048x1 (ix2 r u) = v (ix1 r) :=
  shapeCast_apply v Gen.shapeCasts_S2048_S2048x1 (ix2 r u) (ix1 r) (by
    rw [Shape.rowMajor_val_one, Shape.rowMajor_val_two]
    show r.val = r.val * 1 + u.val
    omega)

/-- The exponential, entry by entry. -/
theorem exp_at {s : Shape} (v : FVec Ideal s .f32) (i : s.Idx) : exp v i = Ideal.exp (v i) := rfl

/-! ## The payload -/

/-- What the body stores, at row `r` and output channel `j` of the block. -/
theorem payload_at (x : FVec Ideal S2048x512 .f32) (s : FVec Ideal S1x512 .f32) (ct : FVec Ideal S512x512 .bf16)
    (h : FVec Ideal S1x512 .f32) (wt : FVec Ideal S512x512 .bf16) (b : FVec Ideal S1x512 .f32) (r : Fin 2048) (j : Fin 512) :
    k0_pay1 (F := Ideal) x s ct h wt b (ix2 r j)
      = (∑ n : Fin 512, Ideal.exp (min (((∑ k : Fin 512, (x (ix2 r k) * s (ix2 (0 : Fin 1) k)) * ct (ix2 k n))
              + RbfLaw.negHalf * ∑ k : Fin 512, (x (ix2 r k) * s (ix2 (0 : Fin 1) k)) * (x (ix2 r k) * s (ix2 (0 : Fin 1) k)))
            + h (ix2 (0 : Fin 1) n)) RbfLaw.zero) * wt (ix2 n j)) + b (ix2 (0 : Fin 1) j) := by
  unfold k0_pay1
  simp only [addf_apply, mulf_apply, minimumf_apply, truncf_apply, broadcast_apply, exp_at, shapeCast_self,
    broadcastTo_1b_ab_apply, LibColBroadcast.broadcastTo_a1_ab_apply, matmul_at, column_at]
  rw [rowsum_at]
  simp only [mulf_apply, shapeCast_self, broadcastTo_1b_ab_apply]
  rfl

end Cert.RbfBody

end
-- ==== Proof.KernelValue.lean ====
/-
  The kernel's result array, as one function of the arguments.

  The grid has 16 points; point `t` works on rows `2048·t … 2048·t + 2047` of the flattened input and writes the
  same rows of the flattened result, while the five small operands are fetched whole at every point.  So an entry
  `(r, j)` of the block written at point `t` is entry `(2048·t + r, j)` of ONE function of the argument arrays,

      result (R, j) = Σ_n exp (exponent of row R against centre n, scaled form) · W (j, n) + b j ,

  and since every row lies in exactly the block of point `R / 2048`, the result array after the run is that
  function.  The one host operation after the kernel reshapes it back to `[4, 8192, 512]`.
-/
import proofs.«161106_j61186104098901_2_alg».proof.Proof.KernelHost
import proofs.«161106_j61186104098901_2_alg».proof.Proof.KernelBody

noncomputable section

namespace Cert.RbfKernel

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo Cert.RbfHost

/-! ## The function -/

/-- The flattened result, with the exponent in the scaled form, as a function of the five argument arrays. -/
def result (x : FVec Ideal S4x8192x512 .f32) (C : FVec Ideal S512x512 .f32) (l : FVec Ideal S512 .f32)
    (W : FVec Ideal S512x512 .f32) (b : FVec Ideal S512 .f32) : FVec Ideal S32768x512 .f32 := fun i =>
  RbfLaw.rbfOut RbfLaw.expScaled (fun (R : Fin 32768) (k : Fin 512) => rows x (ix2 R k)) (fun (n k : Fin 512) => C (ix2 n k))
    (fun k : Fin 512 => l (ix1 k)) (fun (j n : Fin 512) => W (ix2 j n)) (fun j : Fin 512 => b (ix1 j))
    (⟨(i 0).val, (i 0).isLt⟩ : Fin 32768) (⟨(i 1).val, (i 1).isLt⟩ : Fin 512)

theorem result_at (x : FVec Ideal S4x8192x512 .f32) (C : FVec Ideal S512x512 .f32) (l : FVec Ideal S512 .f32)
    (W : FVec Ideal S512x512 .f32) (b : FVec Ideal S512 .f32) (R : Fin 32768) (j : Fin 512) :
    result x C l W b (ix2 R j)
      = RbfLaw.rbfOut RbfLaw.expScaled (fun (R : Fin 32768) (k : Fin 512) => rows x (ix2 R k)) (fun (n k : Fin 512) => C (ix2 n k))
          (fun k : Fin 512 => l (ix1 k)) (fun (j n : Fin 512) => W (ix2 j n)) (fun j : Fin 512 => b (ix1 j)) R j := rfl

/-! ## One block of the body is a block of the function -/

/-- The body's payload on a block whose rows are rows of `X` and whose small operands are the host's arrays, at `(r, j)`,
    is the function at the block's row `R`. -/
theorem block_at (X : FVec Ideal S32768x512 .f32) (C W : FVec Ideal S512x512 .f32) (l b : FVec Ideal S512 .f32)
    (x : FVec Ideal S2048x512 .f32) (s h bb : FVec Ideal S1x512 .f32) (ct wt : FVec Ideal S512x512 .bf16)
    (R : Fin 32768) (r : Fin 2048) (j : Fin 512)
    (hx : ∀ k : Fin 512, x (ix2 r k) = X (ix2 R k))
    (hs : ∀ k : Fin 512, s (ix2 (0 : Fin 1) k) = recipRow l (ix2 (0 : Fin 1) k))
    (hct : ∀ k n : Fin 512, ct (ix2 k n) = centresT C l (ix2 k n))
    (hh : ∀ n : Fin 512, h (ix2 (0 : Fin 1) n) = halfNegSq C l (ix2 (0 : Fin 1) n))
    (hwt : ∀ n j : Fin 512, wt (ix2 n j) = weightsT W (ix2 n j))
    (hb : ∀ j : Fin 512, bb (ix2 (0 : Fin 1) j) = biasRow b (ix2 (0 : Fin 1) j)) :
    k0_pay1 (F := Ideal) x s ct h wt bb (ix2 r j)
      = RbfLaw.rbfOut RbfLaw.expScaled (fun (R : Fin 32768) (k : Fin 512) => X (ix2 R k)) (fun (n k : Fin 512) => C (ix2 n k))
          (fun k : Fin 512 => l (ix1 k)) (fun (j n : Fin 512) => W (ix2 j n)) (fun j : Fin 512 => b (ix1 j)) R j := by
  rw [RbfBody.payload_at]
  unfold RbfLaw.rbfOut RbfLaw.expScaled
  simp only [hx, hs, hct, hh, hwt, hb, recipRow_at, centresT_at, halfNegSq_at, weightsT_at, biasRow_at]

/-! ## The blocks the body is called on -/

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 16 points: the row windows (input rows, result rows) sit at block `t`, every
    other window at block `0`. -/
theorem idx_facts : ∀ t : Fin cfg0.N, win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `r` of the input block at point `t` is row `2048·t + r` of the flattened input. -/
theorem rows_block_at (c : Dev nD) (t : Fin cfg0.N) (r : Fin 2048) (k : Fin 512) (R : Fin 32768) (hR : R.val = t.val * 2048 + r.val) :
    (iblk m c 0 t : Vec Ideal S2048x512 .f32) (ix2 r k) = V m c main_v0 (ix2 R k) := by
  obtain ⟨e0, e1, -⟩ := idx_facts t
  show V m c main_v0 (((cfg0.win 0).blk t).view.emb (ix2 r k)) = V m c main_v0 (ix2 R k)
  refine congrArg (V m c main_v0) (funext fun a => Fin.ext ?_)
  match a with
  | ⟨0, _⟩ => show win0_0.index t (0 : Fin 2) * 2048 + 1 * r.val = R.val; omega
  | ⟨1, _⟩ => show win0_0.index t (1 : Fin 2) * 512 + 1 * k.val = k.val; omega

/-- The scaled transposed centres are fetched whole at every point. -/
theorem centres_block_at (c : Dev nD) (t : Fin cfg0.N) (y : S512x512.Idx) :
    (iblk m c 1 t : Vec Ideal S512x512 .bf16) y = V m c main_v13 y := by
  obtain ⟨-, -, -, -, e0, e1, -⟩ := idx_facts t
  show V m c main_v13 (((cfg0.win 1).blk t).view.emb y) = V m c main_v13 y
  refine congrArg (V m c main_v13) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- So is the row of halved negated sums of squares. -/
theorem halfNegSq_block_at (c : Dev nD) (t : Fin cfg0.N) (y : S1x512.Idx) :
    (iblk m c 2 t : Vec Ideal S1x512 .f32) y = V m c main_v11 y := by
  obtain ⟨-, -, -, -, -, -, e0, e1, -⟩ := idx_facts t
  show V m c main_v11 (((cfg0.win 2).blk t).view.emb y) = V m c main_v11 y
  refine congrArg (V m c main_v11) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- So are the transposed output weights. -/
theorem weights_block_at (c : Dev nD) (t : Fin cfg0.N) (y : S512x512.Idx) :
    (iblk m c 3 t : Vec Ideal S512x512 .bf16) y = V m c main_v15 y := by
  obtain ⟨-, -, -, -, -, -, -, -, e0, e1, -⟩ := idx_facts t
  show V m c main_v15 (((cfg0.win 3).blk t).view.emb y) = V m c main_v15 y
  refine congrArg (V m c main_v15) (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

/-- So is the bias row. -/
theorem bias_block_at (c : Dev nD) (t : Fin cfg0.N) (y : S1x512.Idx) :
    (iblk m c 4 t : Vec Ideal S1x512 .f32) y = V m c main_v16 y := by
  obtain ⟨-, -, -, -, -, -, -, -, -, -, e0, e1, -⟩ := idx_facts t
  show V m c main_v16 (((cfg0.win 4).blk t).view.emb y) = V m c main_v16 y
  refine congrArg (V m c main_v16) (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

/-- So is the reciprocal length scale. -/
theorem recip_block_at (c : Dev nD) (t : Fin cfg0.N) (y : S1x512.Idx) :
    (iblk m c 5 t : Vec Ideal S1x512 .f32) y = V m c main_v3 y := by
  obtain ⟨-, -, -, -, -, -, -, -, -, -, -, -, e0, e1⟩ := idx_facts t
  show V m c main_v3 (((cfg0.win 5).blk t).view.emb y) = V m c main_v3 y
  refine congrArg (V m c main_v3) (funext fun a => Fin.ext ?_)
  match a with
  | ⟨0, _⟩ => show win0_5.index t (0 : Fin 2) * 1 + 1 * (y 0).val = (y 0).val; omega
  | ⟨1, _⟩ => show win0_5.index t (1 : Fin 2) * 512 + 1 * (y 1).val = (y 1).val; omega

/-! ## What a point writes back, and the array after the run -/

/-- The function of this run's argument arrays. -/
abbrev resultOf (c : Dev nD) : FVec Ideal S32768x512 .f32 :=
  result (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is block `t` of the function. -/
theorem flushed_eq (c : Dev nD) (t : Fin cfg0.N) :
    (dats m 0 c).flushed 6 t = ((cfg0.win 6).blk t).view.read (Elt Ideal) (resultOf m c) := by
  show (cfg0.win 6).cut (grid0.coords t) ((dats m 0 c).after 6 t) = _
  rw [after0_6]
  unfold out0_6
  rw [View.canon_unit_zero hz]
  simp only [View.ld_unit_zero (S := S2048x512) hz, View.ld_unit_zero (S := S1x512) hz, View.ld_unit_zero (S := S512x512) hz]
  obtain ⟨-, -, e0, e1, -⟩ := idx_facts t
  have hN : t.val < 16 := by
    have h1 : t.val < cfg0.N := t.isLt
    have h2 : cfg0.N = 16 := N_0
    omega
  funext y
  obtain ⟨r, j, rfl⟩ : ∃ (r : Fin 2048) (j : Fin 512), (y : S2048x512.Idx) = ix2 r j := ⟨y 0, y 1, eq_ix2 y⟩
  show k0_pay1 (F := Ideal) (iblk m c 0 t) (iblk m c 5 t) (iblk m c 1 t) (iblk m c 2 t) (iblk m c 3 t) (iblk m c 4 t) (ix2 r j)
    = resultOf m c (((cfg0.win 6).blk t).view.emb (ix2 r j))
  have hemb : ((cfg0.win 6).blk t).view.emb (ix2 r j) = ix2 (⟨t.val * 2048 + r.val, by omega⟩ : Fin 32768) j := by
    funext a; apply Fin.ext
    match a with
    | ⟨0, _⟩ => show win0_6.index t (0 : Fin 2) * 2048 + 1 * r.val = t.val * 2048 + r.val; omega
    | ⟨1, _⟩ => show win0_6.index t (1 : Fin 2) * 512 + 1 * j.val = j.val; omega
  rw [hemb]
  show _ = result (m ((c : Thread nD τ).loc main_arg0)) (m ((c : Thread nD τ).loc main_arg1)) (m ((c : Thread nD τ).loc main_arg2))
    (m ((c : Thread nD τ).loc main_arg3)) (m ((c : Thread nD τ).loc main_arg4)) (ix2 (⟨t.val * 2048 + r.val, by omega⟩ : Fin 32768) j)
  rw [result_at, ← V_rows m c]
  exact block_at (V m c main_v0) _ _ _ _ (iblk m c 0 t) (iblk m c 5 t) (iblk m c 2 t) (iblk m c 4 t) (iblk m c 1 t) (iblk m c 3 t)
    _ r j (fun k => rows_block_at m c t r k _ rfl)
    (fun k => (recip_block_at m c t _).trans (congrFun (V_recipRow m c) _))
    (fun k n => (centres_block_at m c t _).trans (congrFun (V_centresT m c) _))
    (fun n => (halfNegSq_block_at m c t _).trans (congrFun (V_halfNegSq m c) _))
    (fun n j => (weights_block_at m c t _).trans (congrFun (V_weightsT m c) _))
    (fun j => (bias_block_at m c t _).trans (congrFun (V_biasRow m c) _))

/-- An index of the result array is in point `t`'s block iff each coordinate is in the block's range on its axis. -/
theorem mem_blk (t : Fin cfg0.N) (i : S32768x512.Idx) :
    i ∈ ((cfg0.win 6).blk t).view.set ↔ ∀ a : Fin 2, win0_6.index t a * S2048x512.size a ≤ (i a).val ∧ (i a).val < win0_6.index t a * S2048x512.size a + S2048x512.size a := by
  show i ∈ ((View.whole main_v17).slice (win0_6.rect t)).set ↔ _
  rw [View.set_slice_whole, Rect.mem_set_unit]
  exact Iff.rfl

/-- Every row lies in the block of the point `row / 2048`. -/
theorem cover (i : S32768x512.Idx) : ∃ t : Fin cfg0.N, (cfg0.win 6).flush t = true ∧ i ∈ ((cfg0.win 6).blk t).view.set := by
  have hi0 : (i 0).val < 32768 := (i 0).isLt
  have hi1 : (i 1).val < 512 := (i 1).isLt
  have hN : cfg0.N = 16 := N_0
  obtain ⟨-, -, e0, e1, -⟩ := idx_facts ⟨(i 0).val / 2048, by rw [hN]; omega⟩
  refine ⟨⟨(i 0).val / 2048, by rw [hN]; omega⟩, flush0_6 _, ?_⟩
  rw [mem_blk]
  intro a
  match a with
  | ⟨0, _⟩ =>
    show win0_6.index ⟨(i 0).val / 2048, _⟩ (0 : Fin 2) * 2048 ≤ (i 0).val ∧ (i 0).val < win0_6.index ⟨(i 0).val / 2048, _⟩ (0 : Fin 2) * 2048 + 2048
    rw [e0]
    show (i 0).val / 2048 * 2048 ≤ (i 0).val ∧ (i 0).val < (i 0).val / 2048 * 2048 + 2048
    omega
  | ⟨1, _⟩ =>
    show win0_6.index ⟨(i 0).val / 2048, _⟩ (1 : Fin 2) * 512 ≤ (i 1).val ∧ (i 1).val < win0_6.index ⟨(i 0).val / 2048, _⟩ (1 : Fin 2) * 512 + 512
    rw [e1]
    omega

/-- The result array after the run is the function. -/
theorem final (c : Dev nD) : (dats m 0 c).arrAt 6 cfg0.N = resultOf m c :=
  (dats m 0 c).arrAt_eq_of_cover 6 (resultOf m c) (fun t _ => flushed_eq m c t) cover

end Cert.RbfKernel

end
-- ==== Proof.KernelRun.lean ====
/-
  The kernel program's run, read: the returned array is the function `RbfKernel.result` of the argument arrays,
  reshaped from `[32768, 512]` to `[4, 8192, 512]`, and the arguments end as they were launched.
-/
import proofs.«161106_j61186104098901_2_alg».proof.Proof.KernelValue

noncomputable section

namespace Cert.RbfKernel

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo Cert.RbfHost

variable (m : (ℓ : Loc nD τ sig) → Buf (Elt Ideal) ℓ) (ρ : Dev nD → PrngReg)

/-- The array the program returns: the function, reshaped. -/
abbrev returned (c : Dev nD) : FVec Ideal S4x8192x512 .f32 :=
  shapeCast S4x8192x512 (resultOf m c) Gen.shapeCasts_S32768x512_S4x8192x512

/-- The one host operation after the kernel reshapes the result array, which holds the function. -/
theorem tail_eq (c : Dev nD) :
    Pipeline.afterTail₀ cfgs (dats m) 0 (V0 m) [hostOps1] c main_v18 = returned m c := by
  unfold Pipeline.afterTail₀
  show StableHlo.after hostOps1 _ (Proc.devRef .tc main_v18) = _
  after_results
  have e : Pipeline.withArrays (cfgs 0).spec c (V0 m c) (fun w => (dats m 0 c).arrAt w (cfgs 0).N) (Proc.tc.devRef main_v17)
      = resultOf m c :=
    (Pipeline.withArrays_arr spec0 launch0.win.arr_inj c _ _ 6).trans (final m c)
  rw [e]
  rfl

/-- Every weakly fair execution of the kernel program terminates with the returned array at the function of the
    arguments, reshaped, and the arguments unchanged. -/
theorem run : θ_run defs (onTc (τ := τ) (main (F := Ideal))) ⟨m, fun _ => 0, ρ⟩ fun r => ∀ c : Dev nD,
      r.2.mem ((c.tc : Thread nD τ).loc main_v18) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.RbfKernel

end
-- ==== Proof.Finite.lean ====
/-
  What the precondition gives.

  The precondition is the conjunction of five tests "every entry has absolute value below +∞", one per input,
  and the test "every entry of the length scale differs from 0".  On extended reals an entry whose absolute
  value `max x (-x)` is below `⊤` is neither `⊤` nor `⊥`, so it is a real number; and a real length scale entry
  that differs from `0` is a nonzero real.  The law of the exponent needs exactly this of the input rows, the
  centres and the length scale.
-/
import proofs.«161106_j61186104098901_2_alg».proof.Pre_finite_inputs
import proofs.«161106_j61186104098901_2_alg».proof.Proof.Consts
import Idealize.ShloMosaic.Lib.ReduceAll
import Idealize.ShloMosaic.Lib.Affine
import Idealize.ShloMosaic.Lib.ValueIdx
import Idealize.ShloMosaic.PureOps.Ideal.Laws

noncomputable section

namespace Cert.RbfFinite

open Idealize.ShloMosaic Idealize.ShloMosaic.ValueIdx Cert.Pre_finite_inputs

instance : Subsingleton S_.Idx := ⟨fun _ _ => funext fun d => d.elim0⟩

/-- An extended real whose absolute value is below `⊤` is a real number. -/
theorem real_of_abs_lt_top (x : EReal) (h : Ideal.cmp .olt (max x (-x)) ⊤ = 1#1) : ∃ r : ℝ, x = r := by
  have hlt : max x (-x) < ⊤ := by
    by_contra hn
    have : Ideal.cmp .olt (max x (-x)) ⊤ = 0#1 := by
      unfold Ideal.cmp
      simp [hn]
    rw [this] at h
    exact absurd h (by decide)
  induction x using EReal.rec with
  | bot => simp at hlt
  | coe r => exact ⟨r, rfl⟩
  | top => simp at hlt

/-- An extended real that the comparison finds different from the zero pattern is not `0`. -/
theorem ne_zero_of_cmp (x : EReal) (h : Ideal.cmp .une x (Ideal.ofBits .f32 0x00000000#32) = 1#1) : x ≠ 0 := by
  intro hx
  have : Ideal.cmp .une x (Ideal.ofBits .f32 0x00000000#32) = 0#1 := by
    rw [Cert.RbfConsts.ofBits_zero, EReal.coe_zero, hx]
    unfold Ideal.cmp
    simp
  rw [this] at h
  exact absurd h (by decide)

/-- One finiteness test, read at an entry. -/
theorem entry_real {s : Shape} (A : FVec Ideal s .f32) (hb : S_.BroadcastsInDim s (![] : Fin 0 → Fin s.rank)) (i : s.Idx)
    (h : cmpf .olt (Host.absf A) (broadcastInDim s ![] hb (constant (F := Ideal) S_ .f32 0x7F800000#32)) i = 1#1) :
    ∃ r : ℝ, A i = r := by
  have h' : Ideal.cmp .olt (max (A i) (-(A i))) (Ideal.ofBits .f32 0x7F800000#32) = 1#1 := h
  rw [Cert.RbfConsts.ofBits_inf] at h'
  exact real_of_abs_lt_top _ h'

/-- The nonzero test, read at an entry. -/
theorem entry_ne_zero {s : Shape} (A : FVec Ideal s .f32) (hb : S_.BroadcastsInDim s (![] : Fin 0 → Fin s.rank)) (i : s.Idx)
    (h : cmpf .une A (broadcastInDim s ![] hb (constant (F := Ideal) S_ .f32 0x00000000#32)) i = 1#1) : A i ≠ 0 := by
  have h' : Ideal.cmp .une (A i) (Ideal.ofBits .f32 0x00000000#32) = 1#1 := h
  exact ne_zero_of_cmp _ h'

variable [Facts]

/-- Under the precondition the input and the centres are real entry by entry, and the length scale is a nonzero real
    entry by entry. -/
theorem decode (A0 : FVec Ideal S4x8192x512 .f32) (A1 : FVec Ideal S512x512 .f32) (A2 : FVec Ideal S512 .f32)
    (A3 : FVec Ideal S512x512 .f32) (A4 : FVec Ideal S512 .f32)
    (h : fn (F := Ideal) A0 A1 A2 A3 A4 = fun _ => 1#1) :
    (∀ i, ∃ r : ℝ, A0 i = r) ∧ (∀ i, ∃ r : ℝ, A1 i = r) ∧ (∀ i, ∃ r : ℝ, A2 i = r ∧ r ≠ 0) := by
  have h0 := congrFun h ix0
  dsimp only [fn, fn_part1] at h0
  obtain ⟨h1, hne⟩ := IntOp.andi_eq_one.mp h0
  obtain ⟨h2, -⟩ := IntOp.andi_eq_one.mp h1
  obtain ⟨h3, -⟩ := IntOp.andi_eq_one.mp h2
  obtain ⟨h4, hl⟩ := IntOp.andi_eq_one.mp h3
  obtain ⟨hx, hc⟩ := IntOp.andi_eq_one.mp h4
  refine ⟨fun i => entry_real A0 _ i (Host.reduce_andi_all _ _ _ _ _ hx i),
    fun i => entry_real A1 _ i (Host.reduce_andi_all _ _ _ _ _ hc i), fun i => ?_⟩
  obtain ⟨r, hr⟩ := entry_real A2 _ i (Host.reduce_andi_all _ _ _ _ _ hl i)
  refine ⟨r, hr, fun h0 => ?_⟩
  exact entry_ne_zero A2 _ i (Host.reduce_andi_all _ _ _ _ _ hne i) (by rw [hr, h0, EReal.coe_zero])

end Cert.RbfFinite

end
-- ==== Proof.lean ====
/-
  A pairwise RBF feature map followed by a linear projection: for every input row `x` (32768 of them, 512 channels),
  every centre `c_n` (512) and a per-channel length scale `l`,

      out (x, j) = Σ_n exp (-½ · ‖x / l - c_n / l‖²) · W (j, n) + b j ,

  the squared distance taken by the expansion `Σ (x/l)² + Σ (c_n/l)² - 2 Σ (x/l)(c_n/l)` and clamped at zero.

  The reference divides by the length scale, clamps the squared distance from below and multiplies by `-½`.  The kernel
  multiplies by the reciprocal `1 / l` instead, folds the `-½` into the two sums of squares, adds the cross term and
  clamps the exponent from above; it works on 16 blocks of 2048 rows.  Over the extended reals the two agree wherever
  the rows, the centres and the length scale are real numbers and no length scale entry is zero — then every quantity
  in sight is a real number and the identity is the one on the reals (`RbfLaw`).  Finiteness of the inputs and a
  nonzero length scale are what the precondition states (`RbfFinite.decode`); at a zero length scale the reference
  itself divides by zero.

  The modules: `RbfLaw` (the mathematics), `RefValue` (the reference read at an index), `KernelBody` (what one grid
  point stores), `KernelHost` (the arrays the host prepares), `KernelValue` and `KernelRun` (the kernel's result array
  as one function of the arguments, and the program's run), `Finite` (the precondition read), `Consts`.
-/
import proofs.«161106_j61186104098901_2_alg».proof.Defs
import proofs.«161106_j61186104098901_2_alg».proof.Proof.Gen.Kernel
import proofs.«161106_j61186104098901_2_alg».proof.Proof.Gen.Kernel.Frame
import proofs.«161106_j61186104098901_2_alg».proof.Proof.Gen.KernelIdeal
import proofs.«161106_j61186104098901_2_alg».proof.Proof.Gen.KernelIdeal.Frame
import proofs.«161106_j61186104098901_2_alg».proof.Proof.Gen.ReferenceIdeal
import proofs.«161106_j61186104098901_2_alg».proof.Proof.Gen.ReferenceIdeal.Read
import proofs.«161106_j61186104098901_2_alg».proof.Proof.Gen.Pre_finite_inputs
import proofs.«161106_j61186104098901_2_alg».proof.Proof.RefValue
import proofs.«161106_j61186104098901_2_alg».proof.Proof.KernelRun
import proofs.«161106_j61186104098901_2_alg».proof.Proof.Finite
import Idealize.ShloMosaic.Adequacy
import Idealize.ShloMosaic.Init

noncomputable section

namespace Cert.Proof

open Idealize.ShloMosaic Idealize.SL.Sem Idealize.ShloMosaic.ValueIdx

/-- The kernel program as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- From memories that agree on the arguments, both programs end with the same result: the kernel's array is the
    function with the scaled exponent, the reference's the function with the clamped exponent, and under the
    precondition the two exponents agree. -/
theorem algebraic : Cert.algebraic_KernelIdeal_ReferenceIdeal := by
  intro m ρ m' ρ' hpre hagree
  refine ⟨fun c => Cert.RbfKernel.returned m c, Cert.RbfKernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  obtain ⟨hx, hc, hl⟩ := Cert.RbfFinite.decode _ _ _ _ _ (hpre c)
  refine (Cert.ReferenceIdeal.Read.val_main_v31_eq _ _ _ _ _).trans ?_
  rw [a0, a1, a2, a3, a4]
  unfold Cert.ReferenceIdeal.Read.val_main_v31 Cert.RbfKernel.returned
  refine congrArg (fun y => shapeCast Cert.KernelIdeal.S4x8192x512 y Cert.KernelIdeal.Gen.shapeCasts_S32768x512_S4x8192x512) ?_
  funext i
  obtain ⟨R, j, rfl⟩ : ∃ (R : Fin 32768) (j : Fin 512), i = ix2 R j := ⟨i 0, i 1, eq_ix2 i⟩
  rw [Cert.RbfRef.result_apply]
  show _ = Cert.RbfKernel.result _ _ _ _ _ (ix2 R j)
  rw [Cert.RbfKernel.result_at]
  refine (Cert.RbfLaw.rbfOut_scaled_eq_clamped _ _ _ _ _ (fun R k => ?_) (fun n k => hc _) (fun k => hl _) R j).symm
  show ∃ a : ℝ, Cert.ReferenceIdeal.Read.val_main_v0 (F := Ideal)
    (m ((c.tc : Thread Cert.KernelIdeal.nD Cert.KernelIdeal.τ).loc Cert.KernelIdeal.main_arg0)) (ix2 R k) = a
  rw [Cert.ReferenceIdeal.Read.val_main_v0_apply]
  exact hx _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
